-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x128 : Shape := ⟨3, ![256, 2048, 128]⟩
abbrev S1x256x128 : Shape := ⟨3, ![1, 256, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S256x2048x128 : S_.BroadcastsInDim S256x2048x128 (![] : Fin 0 → Fin S256x2048x128.rank)
  reducesTo_S256x2048x128_S_d0_1_2 : S256x2048x128.ReducesTo [0, 1, 2] S_
  h_S_ : 0 < S_.numel
  bcast_S_S1x256x128 : S_.BroadcastsInDim S1x256x128 (![] : Fin 0 → Fin S1x256x128.rank)
  reducesTo_S1x256x128_S_d0_1_2 : S1x256x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128x1 .f32) (main_arg8 : FVec F S1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S128 .f32) (main_arg5 : FVec F S256x128 .f32) (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S256x2048x128 .f32) (main_arg1 : FVec F S1x256x128 .f32) (main_arg2 : FVec F S1x256x128 .f32) (main_arg3 : FVec F S128x128 .f32) (main_arg4 : FVec F S128 .f32) (main_arg5 : FVec F S256x128 .f32) (main_arg6 : FVec F S128 .f32) (main_arg7 : FVec F S128x1 .f32) (main_arg8 : FVec F S1 .f32) : IVec S_ 1 :=
  let main_v0 : FVec F S256x2048x128 .f32 := Host.absf main_arg0
  let main_cst : FVec F S_ .f32 := constant S_ .f32 0x7F800000#32
  let main_v1 : FVec F S256x2048x128 .f32 := broadcastInDim S256x2048x128 ![] bcast_S_S256x2048x128 main_cst
  let main_v2 : IVec S256x2048x128 1 := cmpf .olt main_v0 main_v1
  let main_c : IVec S_ 1 := constantI S_ 1 1#1
  let main_v3 : IVec S_ 1 := (fun x v => Host.reduce IntOp.andi x v reducesTo_S256x2048x128_S_d0_1_2 h_S_) main_v2 main_c
  let main_v4 : FVec F S1x256x128 .f32 := Host.absf main_arg1
  let main_cst_0 : FVec F S_ .f32 := constant S_ .f32 0x7F800000#32
  let main_v5 : FVec F S1x256x128 .f32 := broadcastInDim S1x256x128 ![] bcast_S_S1x256x128 main_cst_0
  let main_v6 : IVec S1x256x128 1 := cmpf .olt main_v4 main_v5
  let main_c_1 : IVec S_ 1 := constantI S_ 1 1#1
  let main_v7 : IVec S_ 1 := (fun x v => Host.reduce IntOp.andi x v reducesTo_S1x256x128_S_d0_1_2 h_S_) main_v6 main_c_1
  let main_v8 : IVec S_ 1 := andi main_v3 main_v7
  let main_v9 : FVec F S1x256x128 .f32 := Host.absf main_arg2
  let main_cst_2 : FVec F S_ .f32 := constant S_ .f32 0x7F800000#32
  let main_v10 : FVec F S1x256x128 .f32 := broadcastInDim S1x256x128 ![] bcast_S_S1x256x128 main_cst_2
  let main_v11 : IVec S1x256x128 1 := cmpf .olt main_v9 main_v10
  let main_c_3 : IVec S_ 1 := constantI S_ 1 1#1
  let main_v12 : IVec S_ 1 := (fun x v => Host.reduce IntOp.andi x v reducesTo_S1x256x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S256x2048x128 : Shape := ⟨3, ![256, 2048, 128]⟩
abbrev S1x256x128 : Shape := ⟨3, ![1, 256, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S256x256 : Shape := ⟨2, ![256, 256]⟩
abbrev S1x128 : Shape := ⟨2, ![1, 128]⟩
abbrev S1x1 : Shape := ⟨2, ![1, 1]⟩
abbrev S256x2048 : Shape := ⟨2, ![256, 2048]⟩
abbrev S128x128x128 : Shape := ⟨3, ![128, 128, 128]⟩
abbrev S256x2048x1 : Shape := ⟨3, ![256, 2048, 1]⟩

abbrev nBuf : Space → Nat
  | .hbm => 22
  | .vmem => 10
  | .smem => 0
  | _ => 0

abbrev bufTy : (tb : Table) → Fin (tcTables nBuf tb) → BufTy
  | .hbm, ⟨0, _⟩ => ⟨S256x2048x128, .f32⟩
  | .hbm, ⟨1, _⟩ => ⟨S1x256x128, .f32⟩
  | .hbm, ⟨2, _⟩ => ⟨S1x256x128, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S256x128, .f32⟩
  | .hbm, ⟨10, _⟩ => ⟨S256x128, .f32⟩
  | .hbm, ⟨11, _⟩ => ⟨S256x256, .f32⟩
  | .hbm, ⟨12, _⟩ => ⟨S256x128, .f32⟩
  | .hbm, ⟨13, _⟩ => ⟨S1x128, .f32⟩
  | .hbm, ⟨14, _⟩ => ⟨S256x128, .f32⟩
  | .hbm, ⟨15, _⟩ => ⟨S256x128, .f32⟩
  | .hbm, ⟨16, _⟩ => ⟨S1x128, .f32⟩
  | .hbm, ⟨17, _⟩ => ⟨S1x128, .f32⟩
  | .hbm, ⟨18, _⟩ => ⟨S1x1, .f32⟩
  | .hbm, ⟨19, _⟩ => ⟨S128x128, .bf16⟩
  | .hbm, ⟨20, _⟩ => ⟨S256x2048, .f32⟩
  | .hbm, ⟨21, _⟩ => ⟨S256x2048x1, .f32⟩
  | .local _ .vmem, ⟨0, _⟩ => ⟨S128x128x128, .f32⟩
  | .local _ .vmem, ⟨1, _⟩ => ⟨S128x128x128, .f32⟩
  | .local _ .vmem, ⟨2, _⟩ => ⟨S128x128, .f32⟩
  | .local _ .vmem, ⟨3, _⟩ => ⟨S128x128, .f32⟩
  | .local _ .vmem, ⟨4, _⟩ => ⟨S128x128, .bf16⟩
  | .local _ .vmem, ⟨5, _⟩ => ⟨S1x128, .f32⟩
  | .local _ .vmem, ⟨6, _⟩ => ⟨S1x128, .f32⟩
  | .local _ .vmem, ⟨7, _⟩ => ⟨S1x1, .f32⟩
  | .local _ .vmem, ⟨8, _⟩ => ⟨S128x128, .f32⟩
  | .local _ .vmem, ⟨9, _⟩ => ⟨S128x128, .f32⟩
  | _, _ => ⟨S256x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S1x256x128_S256x128 : S1x256x128.ShapeCasts S256x128
  concatenates_S256x128_S256x128_S256x256_d1 : Shape.Concatenates [S256x128, S256x128] S256x256 1
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  shapeCasts_S128_S1x128 : S128.ShapeCasts S1x128
  shapeCasts_S128x1_S1x128 : S128x1.ShapeCasts S1x128
  shapeCasts_S1_S1x1 : S1.ShapeCasts S1x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S256x2048_S256x2048x1_0_1 : S256x2048.BroadcastsInDim S256x2048x1 (![0, 1] : Fin 2 → Fin S256x2048x1.rank)
  dot_S256x256_S256x128_S256x128_1_0_0_1_n_n_wf : DotDims.WF S256x256 S256x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x128.size a ≤ S256x2048x128.size a
  hwx0_0 : ∀ i : grid0.Coords, EltTy.bits .f32 = 32 ∨ (Rect.block (s := S256x2048x128) S128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S256x128.size a
  hwx0_1 : ∀ i : grid0.Coords, EltTy.bits .f32 = 32 ∨ (Rect.block (s := S256x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S256x2048.size a
  hwx0_6 : ∀ i : grid0.Coords, EltTy.bits .f32 = 32 ∨ (Rect.block (s := S256x2048) S128x128.size (cc0_transform_6 i) (hinb0_6 i)).WholeWords (EltTy.packing .f32)

variable [Facts₀]

def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_arg0) S128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x2048x128 : Shape := ⟨3, ![256, 2048, 128]⟩
abbrev S1x256x128 : Shape := ⟨3, ![1, 256, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x256x256 : Shape := ⟨3, ![1, 256, 256]⟩
abbrev S256x1x256 : Shape := ⟨3, ![256, 1, 256]⟩
abbrev S256x2048x256 : Shape := ⟨3, ![256, 2048, 256]⟩
abbrev S1x1x128 : Shape := ⟨3, ![1, 1, 128]⟩
abbrev S256x2048x1 : Shape := ⟨3, ![256, 2048, 1]⟩
abbrev S1x1x1 : Shape := ⟨3, ![1, 1, 1]⟩
abbrev S_ : Shape := ⟨0, ![]⟩
abbrev S256x2048 : Shape := ⟨2, ![256, 2048]⟩

abbrev nBuf : Space → Nat
  | .hbm => 39
  | .vmem => 0
  | .smem => 0
  | _ => 0

abbrev bufTy : (tb : Table) → Fin (tcTables nBuf tb) → BufTy
  | .hbm, ⟨0, _⟩ => ⟨S256x2048x128, .f32⟩
  | .hbm, ⟨1, _⟩ => ⟨S1x256x128, .f32⟩
  | .hbm, ⟨2, _⟩ => ⟨S1x256x128, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x256x256, .f32⟩
  | .hbm, ⟨10, _⟩ => ⟨S256x1x256, .f32⟩
  | .hbm, ⟨11, _⟩ => ⟨S256x2048x256, .f32⟩
  | .hbm, ⟨12, _⟩ => ⟨S256x2048x128, .f32⟩
  | .hbm, ⟨13, _⟩ => ⟨S1x1x128, .f32⟩
  | .hbm, ⟨14, _⟩ => ⟨S256x2048x128, .f32⟩
  | .hbm, ⟨15, _⟩ => ⟨S256x2048x128, .f32⟩
  | .hbm, ⟨16, _⟩ => ⟨S256x2048x128, .f32⟩
  | .hbm, ⟨17, _⟩ => ⟨S256x2048x128, .f32⟩
  | .hbm, ⟨18, _⟩ => ⟨S1x1x128, .f32⟩
  | .hbm, ⟨19, _⟩ => ⟨S256x2048x128, .f32⟩
  | .hbm, ⟨20, _⟩ => ⟨S256x2048x128, .f32⟩
  | .hbm, ⟨21, _⟩ => ⟨S256x2048x128, .f32⟩
  | .hbm, ⟨22, _⟩ => ⟨S256x2048x1, .f32⟩
  | .hbm, ⟨23, _⟩ => ⟨S1x1x1, .f32⟩
  | .hbm, ⟨24, _⟩ => ⟨S256x2048x1, .f32⟩
  | .hbm, ⟨25, _⟩ => ⟨S256x2048x1, .f32⟩
  | .hbm, ⟨26, _⟩ => ⟨S_, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048x1, .f32⟩
  | .hbm, ⟨32, _⟩ => ⟨S256x2048x1, .f32⟩
  | .hbm, ⟨33, _⟩ => ⟨S256x2048x1, .f32⟩
  | .hbm, ⟨34, _⟩ => ⟨S_, .f32⟩
  | .hbm, ⟨35, _⟩ => ⟨S256x2048, .f32⟩
  | .hbm, ⟨36, _⟩ => ⟨S256x2048x1, .f32⟩
  | .hbm, ⟨37, _⟩ => ⟨S256x2048x1, .f32⟩
  | .hbm, ⟨38, _⟩ => ⟨S256x2048x1, .f32⟩
  | _, _ => ⟨S256x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_call0_cst_0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_v17 : Ref sig .tc := ⟨.hbm, 38, rfl⟩

abbrev nD : Nat := 1
abbrev τ : Topo := Topo.v7x

variable {F : FTy → Type} [FloatOps F]

class Facts₀ : Prop where
  concatenates_S1x256x128_S1x256x128_S1x256x256_d2 : Shape.Concatenates [S1x256x128, S1x256x128] S1x256x256 2
  transposes_S1x256x256_S256x1x256_1_0_2 : S1x256x256.Transposes [1, 0, 2] S256x1x256
  bcast_S256x1x256_S256x2048x256_0_1_2 : S256x1x256.BroadcastsInDim S256x2048x256 (![0, 1, 2] : Fin 3 → Fin S256x2048x256.rank)
  bcast_S128_S1x1x128_2 : S128.BroadcastsInDim S1x1x128 (![2] : Fin 1 → Fin S1x1x128.rank)
  bcast_S1x1x128_S256x2048x128_0_1_2 : S1x1x128.BroadcastsInDim S256x2048x128 (![0, 1, 2] : Fin 3 → Fin S256x2048x128.rank)
  bcast_S1_S1x1x1_2 : S1.BroadcastsInDim S1x1x1 (![2] : Fin 1 → Fin S1x1x1.rank)
  bcast_S1x1x1_S256x2048x1_0_1_2 : S1x1x1.BroadcastsInDim S256x2048x1 (![0, 1, 2] : Fin 3 → Fin S256x2048x1.rank)
  reducesTo_S256x2048x1_S256x2048_d2 : S256x2048x1.ReducesTo [2] S256x2048
  h_S_ : 0 < S_.numel
  bcast_S_S256x2048 : S_.BroadcastsInDim S256x2048 (![] : Fin 0 → Fin S256x2048.rank)
  bcast_S256x2048_S256x2048x1_0_1 : S256x2048.BroadcastsInDim S256x2048x1 (![0, 1] : Fin 2 → Fin S256x2048x1.rank)
  dot_S256x2048x128_S128x128_S256x2048x128_2_0_01_1_n_n_wf : DotDims.WF S256x2048x128 S128x128 S256x2048x128 [2] [0] [0, 1] [1] [] []
  dot_S256x2048x256_S256x128_S256x2048x128_2_0_01_1_n_n_wf : DotDims.WF S256x2048x256 S256x128 S256x2048x128 [2] [0] [0, 1] [1] [] []
  dot_S256x2048x128_S128x1_S256x2048x1_2_0_01_1_n_n_wf : DotDims.WF S256x2048x128 S128x1 S256x2048x1 [2] [0] [0, 1] [1] [] []

variable [Facts₀]

def dot_S256x2048x128_S128x128_S256x2048x128_2_0_01_1_n_n : DotDims S256x2048x128 S128x128 S256x2048x128 where
  lhsContracting := [2]
  rhsContracting := [0]
  lhsNonContracting := [0, 1]
  rhsNonContracting := [1]
  lhsBatch := []
  rhsBatch := []
  wf := dot_S256x2048x128_S128x128_S256x2048x128_2_0_01_1_n_n_wf
def dot_S256x2048x256_S256x128_S256x2048x128_2_0_01_1_n_n : DotDims S256x2048x256 S256x128 S256x2048x128 where
  lhsContracting := [2]
  rhsContracting := [0]
  lhsNonContracting := [0, 1]
  rhsNonContracting := [1]
  lhsBatch := []
  rhsBatch := []
  wf := dot_S256x2048x256_S256x128_S256x2048x128_2_0_01_1_n_n_wf
def dot_S256x2048x128_S128x1_S256x2048x1_2_0_01_1_n_n : DotDims S256x2048x128 S128x1 S256x2048x1 where
  lhsContracting := [2]
  rhsContracting := [0]
  lhsNonContracting := [0, 1]
  rhsNonContracting := [1]
  lhsBatch := []
  rhsBatch := []
  wf := dot_S256x2048x128_S128x1_S256x2048x1_2_0_01_1_n_n_wf

class Facts : Prop extends Facts₀ where

variable [Facts]
-- ==== Proof.KernelZeros.lean ====
/-
  What the kernel's program leaves in its result.

  The pallas_call runs on a 2 × 16 grid; at every grid point the body stores ONE value through the whole
  [128, 128] output block: the splat of the f32 word 0x00000000.  Block (p, q) of the [256, 2048] output array
  is rows 128·p … 128·p + 127 and columns 128·q … 128·q + 127, so the 32 blocks tile the array and after the
  run every entry of the array is that word.  The host line after the region views the [256, 2048] array as
  [256, 2048, 1] (entry (r, s, 0) is entry (r, s)), so the program's result is the array that holds the zero
  word at every index — whatever the argument arrays are.  At the extended reals the word denotes 0.
-/
import proofs.«160493_j43722767073503_2_alg».proof.Proof.Gen.KernelIdeal.Frame
import Idealize.ShloMosaic.Lib.Pipeline.Value
import Idealize.ShloMosaic.Lib.StableHlo.Run
import Idealize.ShloMosaic.PureOps.Ideal.Laws

set_option maxRecDepth 16384

noncomputable section

namespace Cert.KernelIdeal.Zeros

open Cert.KernelIdeal Cert.KernelIdeal.Gen
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- The body's store starts at row 0, column 0 of its block. -/
theorem offs_zero : (![0, 0] : Fin 2 → Nat) = fun _ => 0 := funext fun a => by fin_cases a <;> rfl

/-- The [256, 2048] array every entry of which is the f32 zero word. -/
def zeros2 : S256x2048.Idx → Elt F .f32 := fun _ => Scalar.ofBits .f32 0x00000000#32

/-- The [256, 2048, 1] array every entry of which is the f32 zero word. -/
def zeros3 : S256x2048x1.Idx → Elt F .f32 := fun _ => Scalar.ofBits .f32 0x00000000#32

/-- What grid point `t` writes back is its block of the all-zero array: the body's one store covers the block and
    its value is the splat of the zero word. -/
theorem flushed_zeros (c : Dev nD) (t : Fin cfg0.N) :
    (dats m 0 c).flushed 6 t = ((cfg0.win 6).blk t).view.read (Elt F) (zeros2 (F := F)) := by
  show (cfg0.win 6).cut (grid0.coords t) ((dats m 0 c).after 6 t) = _
  rw [after0_6]
  unfold out0_6
  rw [View.canon_unit_zero offs_zero]
  rfl

/-- Block (p, q) of the output: an index lies in point `t`'s block iff each coordinate lies in the block's 128 rows,
    respectively columns. -/
theorem mem_block (t : Fin cfg0.N) (i : S256x2048.Idx) :
    i ∈ ((cfg0.win 6).blk t).view.set ↔ ∀ a : Fin 2, win0_6.index t a * S128x128.size a ≤ (i a).val ∧ (i a).val < win0_6.index t a * S128x128.size a + S128x128.size a := by
  show i ∈ ((View.whole main_v11).slice (win0_6.rect t)).set ↔ _
  rw [View.set_slice_whole, Rect.mem_set_unit]
  exact Iff.rfl

/-- Every block (p, q), p < 2, q < 16, is some grid point's. -/
theorem block_onto : ∀ (p : Fin 2) (q : Fin 16), ∃ t : Fin cfg0.N, win0_6.index t = ![p.val, q.val] :=
  (by decide +kernel : ∀ (p : Fin 2) (q : Fin 16), ∃ t : Fin grid0.N, win0_6.index t = ![p.val, q.val])

/-- The 32 blocks tile the array: entry (r, s) lies in block (r / 128, s / 128). -/
theorem covered (i : S256x2048.Idx) :
    ∃ t : Fin cfg0.N, (cfg0.win 6).flush t = true ∧ i ∈ ((cfg0.win 6).blk t).view.set := by
  have hi0 : (i 0).val < 256 := (i 0).isLt
  have hi1 : (i 1).val < 2048 := (i 1).isLt
  obtain ⟨t, ht⟩ := block_onto ⟨(i 0).val / 128, by omega⟩ ⟨(i 1).val / 128, by omega⟩
  have q0 : win0_6.index t (0 : Fin 2) = (i 0).val / 128 := congrFun ht 0
  have q1 : win0_6.index t (1 : Fin 2) = (i 1).val / 128 := congrFun ht 1
  refine ⟨t, flush0_6 t, ?_⟩
  rw [mem_block]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 128 ≤ (i 1).val ∧ (i 1).val < win0_6.index t (1 : Fin 2) * 128 + 128; omega

/-- The output array after the region: the zero word at every entry. -/
theorem array_zeros (c : Dev nD) : (dats m 0 c).arrAt 6 cfg0.N = zeros2 (F := F) :=
  (dats m 0 c).arrAt_eq_of_cover 6 (zeros2 (F := F)) (fun t _ => flushed_zeros m c t) covered

/-- The program's result after the host line that follows the region: the [256, 2048] array viewed [256, 2048, 1],
    the zero word at every entry. -/
theorem result_zeros (c : Dev nD) :
    Pipeline.afterTail₀ cfgs (dats m) 0 (V0 m) [hostOps1] c main_v12 = zeros3 (F := F) := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.devRef .tc main_v11)
      = zeros2 (F := F) :=
    (Pipeline.withArrays_arr spec0 launch0.win.arr_inj c _ _ 6).trans (array_zeros m c)
  rw [e]
  rfl

/-- Every weakly fair execution of the program terminates; the result holds the zero word at every index and the
    argument arrays end as they were launched. -/
theorem run : θ_run defs (onTc (τ := τ) (main (F := F))) ⟨m, fun _ => 0, ρ⟩ fun r => ∀ c : Dev nD,
      r.2.mem ((c.tc : Thread nD τ).loc main_v12) = zeros3 (F := F)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v12 (Pipeline.mem_restRefs_of main_v12 (by decide) (by decide))).trans (result_zeros m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

/-- At the extended reals the zero word is the number 0. -/
theorem zeros3_ideal : zeros3 (F := Ideal) = fun _ => (0 : EReal) :=
  funext fun _ => Ideal.ofBits_zero_f32

end Cert.KernelIdeal.Zeros

end
-- ==== Proof.RefTerms.lean ====
/-
  The reference's last stages as functions of arrays.

  With z the [256, 2048, 128] array that enters the hyperbolic tangent, v the [128, 1] column and bv the one-entry
  bias, the reference's score is  s(b, t, 0) = ∑ₖ tanh z(b, t, k) · v(k, 0) + bv(0),  a [256, 2048, 1] array, and its
  result is the log-softmax of s along the last axis, which has ONE entry: with  M(b, t) = max(−∞, max over that
  entry of s)  and  d = s − M,  the result is  d − log (0 + ∑ over that entry of exp d).
-/
import proofs.«160493_j43722767073503_2_alg».proof.Proof.Gen.ReferenceIdeal

noncomputable section

namespace Cert.ReferenceIdeal.Terms

open Cert.ReferenceIdeal Cert.ReferenceIdeal.Gen Idealize.ShloMosaic

variable {F : FTy → Type} [FloatOps F]

/-- The score: the tanh of `z` contracted with the column `v` along the last axis, plus the bias broadcast to every entry. -/
def scoreOf (z : (⟨S256x2048x128, .f32⟩ : BufTy).Contents (Elt F)) (v : (⟨S128x1, .f32⟩ : BufTy).Contents (Elt F))
    (bv : (⟨S1, .f32⟩ : BufTy).Contents (Elt F)) : (⟨S256x2048x1, .f32⟩ : BufTy).Contents (Elt F) :=
  addf (Host.dotGeneral dot_S256x2048x128_S128x1_S256x2048x1_2_0_01_1_n_n none (Host.tanh z) v)
    (broadcastInDim S256x2048x1 ![0, 1, 2] bcast_S1x1x1_S256x2048x1_0_1_2 (broadcastInDim S1x1x1 ![2] bcast_S1_S1x1x1_2 bv))

/-- The maximum along the one-entry last axis, started from −∞ and once more compared with −∞. -/
def lastMax (s : (⟨S256x2048x1, .f32⟩ : BufTy).Contents (Elt F)) : (⟨S256x2048, .f32⟩ : BufTy).Contents (Elt F) :=
  maximumf (broadcastInDim S256x2048 ![] bcast_S_S256x2048 (constant S_ .f32 0xFF800000#32))
    (Host.reduce FloatOps.maximumf s (constant S_ .f32 0xFF800000#32) reducesTo_S256x2048x1_S256x2048_d2 h_S_)

/-- The array minus its maximum along the last axis. -/
def shifted (s : (⟨S256x2048x1, .f32⟩ : BufTy).Contents (Elt F)) : (⟨S256x2048x1, .f32⟩ : BufTy).Contents (Elt F) :=
  subf s (broadcastInDim S256x2048x1 ![0, 1] bcast_S256x2048_S256x2048x1_0_1 (lastMax s))

/-- The log-softmax along the last axis: the shifted array minus the logarithm of the sum of its exponentials. -/
def logSoftmaxLast (s : (⟨S256x2048x1, .f32⟩ : BufTy).Contents (Elt F)) : (⟨S256x2048x1, .f32⟩ : BufTy).Contents (Elt F) :=
  subf (shifted s) (Host.log (broadcastInDim S256x2048x1 ![0, 1] bcast_S256x2048_S256x2048x1_0_1
    (Host.reduceAdd (Host.exp (shifted s)) (constant S_ .f32 0x00000000#32) reducesTo_S256x2048x1_S256x2048_d2 h_S_)))

end Cert.ReferenceIdeal.Terms

end
-- ==== Proof.RefRun.lean ====
/-
  The reference program's run.

  The reference is a straight line of thirty host operations.  The first twelve compute the array z that enters
  the hyperbolic tangent (two matrix products and two biases; nothing below depends on what z is).  The next five
  compute the score  s = tanh z · v + bv.  The last thirteen are the log-softmax of s along its one-entry last axis.
  Every weakly fair execution terminates, the argument arrays end as launched, and the result is that function of
  the launched arrays: the log-softmax of the score of (z, v, bv).
-/
import proofs.«160493_j43722767073503_2_alg».proof.Proof.RefTerms
import Idealize.ShloMosaic.Lib.StableHlo.Run
import Idealize.ShloMosaic.Lib.Pipeline.Frame

noncomputable section

namespace Cert.ReferenceIdeal.HandRun

open Cert.ReferenceIdeal Cert.ReferenceIdeal.Gen Cert.ReferenceIdeal.Terms
open Idealize.ShloMosaic Idealize.ShloMosaic.TcCoe Idealize.SL.Sem Idealize.ShloMosaic.StableHlo

variable {F : FTy → Type} [FloatOps F]

/-- The twelve operations that compute the array entering the hyperbolic tangent. -/
abbrev opsPre : List (HloOp τ sig (Elt F)) :=
  [ binary main_arg1 main_arg2 main_v0 ((fun a b => concatenate S1x256x256 2 [⟨S1x256x128, a⟩, ⟨S1x256x128, b⟩] concatenates_S1x256x128_S1x256x128_S1x256x256_d2) : (⟨S1x256x128, .f32⟩ : BufTy).Contents (Elt F) → (⟨S1x256x128, .f32⟩ : BufTy).Contents (Elt F) → (⟨S1x256x256, .f32⟩ : BufTy).Contents (Elt F)),
    unary main_v0 main_v1 ((transpose S256x1x256 [1, 0, 2] · transposes_S1x256x256_S256x1x256_1_0_2) : (⟨S1x256x256, .f32⟩ : BufTy).Contents (Elt F) → (⟨S256x1x256, .f32⟩ : BufTy).Contents (Elt F)),
    unary main_v1 main_v2 (broadcastInDim S256x2048x256 ![0, 1, 2] bcast_S256x1x256_S256x2048x256_0_1_2 : (⟨S256x1x256, .f32⟩ : BufTy).Contents (Elt F) → (⟨S256x2048x256, .f32⟩ : BufTy).Contents (Elt F)),
    binary main_arg0 main_arg3 main_v3 ((fun l r => Host.dotGeneral dot_S256x2048x128_S128x128_S256x2048x128_2_0_01_1_n_n none l r) : (⟨S256x2048x128, .f32⟩ : BufTy).Contents (Elt F) → (⟨S128x128, .f32⟩ : BufTy).Contents (Elt F) → (⟨S256x2048x128, .f32⟩ : BufTy).Contents (Elt F)),
    unary main_arg4 main_v4 (broadcastInDim S1x1x128 ![2] bcast_S128_S1x1x128_2 : (⟨S128, .f32⟩ : BufTy).Contents (Elt F) → (⟨S1x1x128, .f32⟩ : BufTy).Contents (Elt F)),
    unary main_v4 main_v5 (broadcastInDim S256x2048x128 ![0, 1, 2] bcast_S1x1x128_S256x2048x128_0_1_2 : (⟨S1x1x128, .f32⟩ : BufTy).Contents (Elt F) → (⟨S256x2048x128, .f32⟩ : BufTy).Contents (Elt F)),
    binary main_v3 main_v5 main_v6 (addf : (⟨S256x2048x128, .f32⟩ : BufTy).Contents (Elt F) → (⟨S256x2048x128, .f32⟩ : BufTy).Contents (Elt F) → (⟨S256x2048x128, .f32⟩ : BufTy).Contents (Elt F)),
    binary main_v2 main_arg5 main_v7 ((fun l r => Host.dotGeneral dot_S256x2048x256_S256x128_S256x2048x128_2_0_01_1_n_n none l r) : (⟨S256x2048x256, .f32⟩ : BufTy).Contents (Elt F) → (⟨S256x128, .f32⟩ : BufTy).Contents (Elt F) → (⟨S256x2048x128, .f32⟩ : BufTy).Contents (Elt F)),
    binary main_v6 main_v7 main_v8 (addf : (⟨S256x2048x128, .f32⟩ : BufTy).Contents (Elt F) → (⟨S256x2048x128, .f32⟩ : BufTy).Contents (Elt F) → (⟨S256x2048x128, .f32⟩ : BufTy).Contents (Elt F)),
    unary main_arg6 main_v9 (broadcastInDim S1x1x128 ![2] bcast_S128_S1x1x128_2 : (⟨S128, .f32⟩ : BufTy).Contents (Elt F) → (⟨S1x1x128, .f32⟩ : BufTy).Contents (Elt F)),
    unary main_v9 main_v10 (broadcastInDim S256x2048x128 ![0, 1, 2] bcast_S1x1x128_S256x2048x128_0_1_2 : (⟨S1x1x128, .f32⟩ : BufTy).Contents (Elt F) → (⟨S256x2048x128, .f32⟩ : BufTy).Contents (Elt F)),
    binary main_v8 main_v10 main_v11 (addf : (⟨S256x2048x128, .f32⟩ : BufTy).Contents (Elt F) → (⟨S256x2048x128, .f32⟩ : BufTy).Contents (Elt F) → (⟨S256x2048x128, .f32⟩ : BufTy).Contents (Elt F)) ]

/-- The five operations of the score: tanh, the product with the column, the bias broadcast twice, the sum. -/
abbrev opsScore : List (HloOp τ sig (Elt F)) :=
  [ unary main_v11 main_v12 (Host.tanh : (⟨S256x2048x128, .f32⟩ : BufTy).Contents (Elt F) → (⟨S256x2048x128, .f32⟩ : BufTy).Contents (Elt F)),
    binary main_v12 main_arg7 main_v13 ((fun l r => Host.dotGeneral dot_S256x2048x128_S128x1_S256x2048x1_2_0_01_1_n_n none l r) : (⟨S256x2048x128, .f32⟩ : BufTy).Contents (Elt F) → (⟨S128x1, .f32⟩ : BufTy).Contents (Elt F) → (⟨S256x2048x1, .f32⟩ : BufTy).Contents (Elt F)),
    unary main_arg8 main_v14 (broadcastInDim S1x1x1 ![2] bcast_S1_S1x1x1_2 : (⟨S1, .f32⟩ : BufTy).Contents (Elt F) → (⟨S1x1x1, .f32⟩ : BufTy).Contents (Elt F)),
    unary main_v14 main_v15 (broadcastInDim S256x2048x1 ![0, 1, 2] bcast_S1x1x1_S256x2048x1_0_1_2 : (⟨S1x1x1, .f32⟩ : BufTy).Contents (Elt F) → (⟨S256x2048x1, .f32⟩ : BufTy).Contents (Elt F)),
    binary main_v13 main_v15 main_v16 (addf : (⟨S256x2048x1, .f32⟩ : BufTy).Contents (Elt F) → (⟨S256x2048x1, .f32⟩ : BufTy).Contents (Elt F) → (⟨S256x2048x1, .f32⟩ : BufTy).Contents (Elt F)) ]

/-- The thirteen operations of the log-softmax along the last axis. -/
abbrev opsSoftmax : List (HloOp τ sig (Elt F)) :=
  [ TRef.nullary (TRef.of (T := ⟨S_, .f32⟩) main_call0_cst) (constant S_ .f32 0xFF800000#32),
    TRef.binary (TRef.of (T := ⟨S256x2048x1, .f32⟩) main_v16) (TRef.of (T := ⟨S_, .f32⟩) main_call0_cst) (TRef.of (T := ⟨S256x2048, .f32⟩) main_call0_v0) (fun x v => Host.reduce FloatOps.maximumf x v reducesTo_S256x2048x1_S256x2048_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S256x2048, .f32⟩) main_call0_v1) (broadcastInDim S256x2048 ![] bcast_S_S256x2048),
    TRef.binary (TRef.of (T := ⟨S256x2048, .f32⟩) main_call0_v1) (TRef.of (T := ⟨S256x2048, .f32⟩) main_call0_v0) (TRef.of (T := ⟨S256x2048, .f32⟩) main_call0_v2) maximumf,
    TRef.unary (TRef.of (T := ⟨S256x2048, .f32⟩) main_call0_v2) (TRef.of (T := ⟨S256x2048x1, .f32⟩) main_call0_v3) (broadcastInDim S256x2048x1 ![0, 1] bcast_S256x2048_S256x2048x1_0_1),
    TRef.binary (TRef.of (T := ⟨S256x2048x1, .f32⟩) main_v16) (TRef.of (T := ⟨S256x2048x1, .f32⟩) main_call0_v3) (TRef.of (T := ⟨S256x2048x1, .f32⟩) main_call0_v4) subf,
    TRef.unary (TRef.of (T := ⟨S256x2048x1, .f32⟩) main_call0_v4) (TRef.of (T := ⟨S256x2048x1, .f32⟩) main_call0_v5) Host.exp,
    TRef.nullary (TRef.of (T := ⟨S_, .f32⟩) main_call0_cst_1) (constant S_ .f32 0x00000000#32),
    TRef.binary (TRef.of (T := ⟨S256x2048x1, .f32⟩) main_call0_v5) (TRef.of (T := ⟨S_, .f32⟩) main_call0_cst_1) (TRef.of (T := ⟨S256x2048, .f32⟩) main_call0_v6) (fun x v => Host.reduceAdd x v reducesTo_S256x2048x1_S256x2048_d2 h_S_),
    TRef.unary (TRef.of (T := ⟨S256x2048, .f32⟩) main_call0_v6) (TRef.of (T := ⟨S256x2048x1, .f32⟩) main_call0_v7) (broadcastInDim S256x2048x1 ![0, 1] bcast_S256x2048_S256x2048x1_0_1),
    TRef.unary (TRef.of (T := ⟨S256x2048x1, .f32⟩) main_call0_v7) (TRef.of (T := ⟨S256x2048x1, .f32⟩) main_call0_v8) Host.log,
    TRef.binary (TRef.of (T := ⟨S256x2048x1, .f32⟩) main_call0_v4) (TRef.of (T := ⟨S256x2048x1, .f32⟩) main_call0_v8) (TRef.of (T := ⟨S256x2048x1, .f32⟩) main_v17) subf ]

/-- The whole program's operations, in order. -/
abbrev ops : List (HloOp τ sig (Elt F)) :=
  [ binary main_arg1 main_arg2 main_v0 ((fun a b => concatenate S1x256x256 2 [⟨S1x256x128, a⟩, ⟨S1x256x128, b⟩] concatenates_S1x256x128_S1x256x128_S1x256x256_d2) : (⟨S1x256x128, .f32⟩ : BufTy).Contents (Elt F) → (⟨S1x256x128, .f32⟩ : BufTy).Contents (Elt F) → (⟨S1x256x256, .f32⟩ : BufTy).Contents (Elt F)),
    unary main_v0 main_v1 ((transpose S256x1x256 [1, 0, 2] · transposes_S1x256x256_S256x1x256_1_0_2) : (⟨S1x256x256, .f32⟩ : BufTy).Contents (Elt F) → (⟨S256x1x256, .f32⟩ : BufTy).Contents (Elt F)),
    unary main_v1 main_v2 (broadcastInDim S256x2048x256 ![0, 1, 2] bcast_S256x1x256_S256x2048x256_0_1_2 : (⟨S256x1x256, .f32⟩ : BufTy).Contents (Elt F) → (⟨S256x2048x256, .f32⟩ : BufTy).Contents (Elt F)),
    binary main_arg0 main_arg3 main_v3 ((fun l r => Host.dotGeneral dot_S256x2048x128_S128x128_S256x2048x128_2_0_01_1_n_n none l r) : (⟨S256x2048x128, .f32⟩ : BufTy).Contents (Elt F) → (⟨S128x128, .f32⟩ : BufTy).Contents (Elt F) → (⟨S256x2048x128, .f32⟩ : BufTy).Contents (Elt F)),
    unary main_arg4 main_v4 (broadcastInDim S1x1x128 ![2] bcast_S128_S1x1x128_2 : (⟨S128, .f32⟩ : BufTy).Contents (Elt F) → (⟨S1x1x128, .f32⟩ : BufTy).Contents (Elt F)),
    unary main_v4 main_v5 (broadcastInDim S256x2048x128 ![0, 1, 2] bcast_S1x1x128_S256x2048x128_0_1_2 : (⟨S1x1x128, .f32⟩ : BufTy).Contents (Elt F) → (⟨S256x2048x128, .f32⟩ : BufTy).Contents (Elt F)),
    binary main_v3 main_v5 main_v6 (addf : (⟨S256x2048x128, .f32⟩ : BufTy).Contents (Elt F) → (⟨S256x2048x128, .f32⟩ : BufTy).Contents (Elt F) → (⟨S256x2048x128, .f32⟩ : BufTy).Contents (Elt F)),
    binary main_v2 main_arg5 main_v7 ((fun l r => Host.dotGeneral dot_S256x2048x256_S256x128_S256x2048x128_2_0_01_1_n_n none l r) : (⟨S256x2048x256, .f32⟩ : BufTy).Contents (Elt F) → (⟨S256x128, .f32⟩ : BufTy).Contents (Elt F) → (⟨S256x2048x128, .f32⟩ : BufTy).Contents (Elt F)),
    binary main_v6 main_v7 main_v8 (addf : (⟨S256x2048x128, .f32⟩ : BufTy).Contents (Elt F) → (⟨S256x2048x128, .f32⟩ : BufTy).Contents (Elt F) → (⟨S256x2048x128, .f32⟩ : BufTy).Contents (Elt F)),
    unary main_arg6 main_v9 (broadcastInDim S1x1x128 ![2] bcast_S128_S1x1x128_2 : (⟨S128, .f32⟩ : BufTy).Contents (Elt F) → (⟨S1x1x128, .f32⟩ : BufTy).Contents (Elt F)),
    unary main_v9 main_v10 (broadcastInDim S256x2048x128 ![0, 1, 2] bcast_S1x1x128_S256x2048x128_0_1_2 : (⟨S1x1x128, .f32⟩ : BufTy).Contents (Elt F) → (⟨S256x2048x128, .f32⟩ : BufTy).Contents (Elt F)),
    binary main_v8 main_v10 main_v11 (addf : (⟨S256x2048x128, .f32⟩ : BufTy).Contents (Elt F) → (⟨S256x2048x128, .f32⟩ : BufTy).Contents (Elt F) → (⟨S256x2048x128, .f32⟩ : BufTy).Contents (Elt F)),
    unary main_v11 main_v12 (Host.tanh : (⟨S256x2048x128, .f32⟩ : BufTy).Contents (Elt F) → (⟨S256x2048x128, .f32⟩ : BufTy).Contents (Elt F)),
    binary main_v12 main_arg7 main_v13 ((fun l r => Host.dotGeneral dot_S256x2048x128_S128x1_S256x2048x1_2_0_01_1_n_n none l r) : (⟨S256x2048x128, .f32⟩ : BufTy).Contents (Elt F) → (⟨S128x1, .f32⟩ : BufTy).Contents (Elt F) → (⟨S256x2048x1, .f32⟩ : BufTy).Contents (Elt F)),
    unary main_arg8 main_v14 (broadcastInDim S1x1x1 ![2] bcast_S1_S1x1x1_2 : (⟨S1, .f32⟩ : BufTy).Contents (Elt F) → (⟨S1x1x1, .f32⟩ : BufTy).Contents (Elt F)),
    unary main_v14 main_v15 (broadcastInDim S256x2048x1 ![0, 1, 2] bcast_S1x1x1_S256x2048x1_0_1_2 : (⟨S1x1x1, .f32⟩ : BufTy).Contents (Elt F) → (⟨S256x2048x1, .f32⟩ : BufTy).Contents (Elt F)),
    binary main_v13 main_v15 main_v16 (addf : (⟨S256x2048x1, .f32⟩ : BufTy).Contents (Elt F) → (⟨S256x2048x1, .f32⟩ : BufTy).Contents (Elt F) → (⟨S256x2048x1, .f32⟩ : BufTy).Contents (Elt F)),
    TRef.nullary (TRef.of (T := ⟨S_, .f32⟩) main_call0_cst) (constant S_ .f32 0xFF800000#32),
    TRef.binary (TRef.of (T := ⟨S256x2048x1, .f32⟩) main_v16) (TRef.of (T := ⟨S_, .f32⟩) main_call0_cst) (TRef.of (T := ⟨S256x2048, .f32⟩) main_call0_v0) (fun x v => Host.reduce FloatOps.maximumf x v reducesTo_S256x2048x1_S256x2048_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S256x2048, .f32⟩) main_call0_v1) (broadcastInDim S256x2048 ![] bcast_S_S256x2048),
    TRef.binary (TRef.of (T := ⟨S256x2048, .f32⟩) main_call0_v1) (TRef.of (T := ⟨S256x2048, .f32⟩) main_call0_v0) (TRef.of (T := ⟨S256x2048, .f32⟩) main_call0_v2) maximumf,
    TRef.unary (TRef.of (T := ⟨S256x2048, .f32⟩) main_call0_v2) (TRef.of (T := ⟨S256x2048x1, .f32⟩) main_call0_v3) (broadcastInDim S256x2048x1 ![0, 1] bcast_S256x2048_S256x2048x1_0_1),
    TRef.binary (TRef.of (T := ⟨S256x2048x1, .f32⟩) main_v16) (TRef.of (T := ⟨S256x2048x1, .f32⟩) main_call0_v3) (TRef.of (T := ⟨S256x2048x1, .f32⟩) main_call0_v4) subf,
    TRef.unary (TRef.of (T := ⟨S256x2048x1, .f32⟩) main_call0_v4) (TRef.of (T := ⟨S256x2048x1, .f32⟩) main_call0_v5) Host.exp,
    TRef.nullary (TRef.of (T := ⟨S_, .f32⟩) main_call0_cst_1) (constant S_ .f32 0x00000000#32),
    TRef.binary (TRef.of (T := ⟨S256x2048x1, .f32⟩) main_call0_v5) (TRef.of (T := ⟨S_, .f32⟩) main_call0_cst_1) (TRef.of (T := ⟨S256x2048, .f32⟩) main_call0_v6) (fun x v => Host.reduceAdd x v reducesTo_S256x2048x1_S256x2048_d2 h_S_),
    TRef.unary (TRef.of (T := ⟨S256x2048, .f32⟩) main_call0_v6) (TRef.of (T := ⟨S256x2048x1, .f32⟩) main_call0_v7) (broadcastInDim S256x2048x1 ![0, 1] bcast_S256x2048_S256x2048x1_0_1),
    TRef.unary (TRef.of (T := ⟨S256x2048x1, .f32⟩) main_call0_v7) (TRef.of (T := ⟨S256x2048x1, .f32⟩) main_call0_v8) Host.log,
    TRef.binary (TRef.of (T := ⟨S256x2048x1, .f32⟩) main_call0_v4) (TRef.of (T := ⟨S256x2048x1, .f32⟩) main_call0_v8) (TRef.of (T := ⟨S256x2048x1, .f32⟩) main_v17) subf ]

theorem ops_split : (ops : List (HloOp τ sig (Elt F))) = opsPre ++ (opsScore ++ opsSoftmax) := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., binary_bufs_sub .., unary_bufs_sub .., nullary_bufs_sub .., binary_bufs_sub .., unary_bufs_sub .., unary_bufs_sub .., binary_bufs_sub ..⟩

/-- The array that enters the hyperbolic tangent, as the first twelve operations leave it. -/
def preAct (m : (ℓ : Loc nD τ sig) → Buf (Elt F) ℓ) (c : Dev nD) : (⟨S256x2048x128, .f32⟩ : BufTy).Contents (Elt F) :=
  after (opsPre (F := F)) (launchContents m c) (Proc.devRef .tc main_v11)

/-- The five score operations, from any contents `W`: the score of what `W` holds at the three buffers they read. -/
theorem score_eq (W : Valuation τ sig (Elt F)) :
    after (opsScore (F := F)) W (Proc.devRef .tc main_v16)
      = scoreOf (F := F) (W (Proc.devRef .tc main_v11)) (W (Proc.devRef .tc main_arg7)) (W (Proc.devRef .tc main_arg8)) := by
  after_results <;> rfl

attribute [local irreducible] Host.reduce in
/-- The thirteen log-softmax operations, from any contents `W`: the log-softmax of what `W` holds at the score's buffer.
    (The maximum's fold over the operand's entries stays folded while the two sides are compared.) -/
theorem softmax_eq (W : Valuation τ sig (Elt F)) :
    after (opsSoftmax (F := F)) W (Proc.devRef .tc main_v17) = logSoftmaxLast (F := F) (W (Proc.devRef .tc main_v16)) := by
  after_results
  simp only [TRef.toBuf, TRef.ofBuf, cast_cast, cast_eq]
  unfold logSoftmaxLast shifted lastMax
  rfl

/-- The first twelve operations write neither the column nor the bias. -/
theorem pre_arg7 (V : Valuation τ sig (Elt F)) : after (opsPre (F := F)) V (Proc.devRef .tc main_arg7) = V (Proc.devRef .tc main_arg7) := by
  after_results <;> rfl
theorem pre_arg8 (V : Valuation τ sig (Elt F)) : after (opsPre (F := F)) V (Proc.devRef .tc main_arg8) = V (Proc.devRef .tc main_arg8) := by
  after_results <;> rfl

/-- The result buffer after the whole line. -/
theorem result_eq (m : (ℓ : Loc nD τ sig) → Buf (Elt F) ℓ) (c : Dev nD) :
    after (ops (F := F)) (launchContents m c) (Proc.devRef .tc main_v17)
      = logSoftmaxLast (F := F) (scoreOf (F := F) (preAct m c) (m ((c.tc : Thread nD τ).loc main_arg7)) (m ((c.tc : Thread nD τ).loc main_arg8))) := by
  rw [ops_split, StableHlo.after_append, StableHlo.after_append, softmax_eq, score_eq, pre_arg7, pre_arg8]
  rfl

theorem kept_arg0 (m : (ℓ : Loc nD τ sig) → Buf (Elt F) ℓ) (c : Dev nD) :
    after (ops (F := F)) (launchContents m c) (Proc.devRef .tc main_arg0) = m ((c.tc : Thread nD τ).loc main_arg0) := by
  rw [ops_split, StableHlo.after_append, StableHlo.after_append]
  after_results <;> rfl
theorem kept_arg1 (m : (ℓ : Loc nD τ sig) → Buf (Elt F) ℓ) (c : Dev nD) :
    after (ops (F := F)) (launchContents m c) (Proc.devRef .tc main_arg1) = m ((c.tc : Thread nD τ).loc main_arg1) := by
  rw [ops_split, StableHlo.after_append, StableHlo.after_append]
  after_results <;> rfl
theorem kept_arg2 (m : (ℓ : Loc nD τ sig) → Buf (Elt F) ℓ) (c : Dev nD) :
    after (ops (F := F)) (launchContents m c) (Proc.devRef .tc main_arg2) = m ((c.tc : Thread nD τ).loc main_arg2) := by
  rw [ops_split, StableHlo.after_append, StableHlo.after_append]
  after_results <;> rfl
theorem kept_arg3 (m : (ℓ : Loc nD τ sig) → Buf (Elt F) ℓ) (c : Dev nD) :
    after (ops (F := F)) (launchContents m c) (Proc.devRef .tc main_arg3) = m ((c.tc : Thread nD τ).loc main_arg3) := by
  rw [ops_split, StableHlo.after_append, StableHlo.after_append]
  after_results <;> rfl
theorem kept_arg4 (m : (ℓ : Loc nD τ sig) → Buf (Elt F) ℓ) (c : Dev nD) :
    after (ops (F := F)) (launchContents m c) (Proc.devRef .tc main_arg4) = m ((c.tc : Thread nD τ).loc main_arg4) := by
  rw [ops_split, StableHlo.after_append, StableHlo.after_append]
  after_results <;> rfl
theorem kept_arg5 (m : (ℓ : Loc nD τ sig) → Buf (Elt F) ℓ) (c : Dev nD) :
    after (ops (F := F)) (launchContents m c) (Proc.devRef .tc main_arg5) = m ((c.tc : Thread nD τ).loc main_arg5) := by
  rw [ops_split, StableHlo.after_append, StableHlo.after_append]
  after_results <;> rfl
theorem kept_arg6 (m : (ℓ : Loc nD τ sig) → Buf (Elt F) ℓ) (c : Dev nD) :
    after (ops (F := F)) (launchContents m c) (Proc.devRef .tc main_arg6) = m ((c.tc : Thread nD τ).loc main_arg6) := by
  rw [ops_split, StableHlo.after_append, StableHlo.after_append]
  after_results <;> rfl
theorem kept_arg7 (m : (ℓ : Loc nD τ sig) → Buf (Elt F) ℓ) (c : Dev nD) :
    after (ops (F := F)) (launchContents m c) (Proc.devRef .tc main_arg7) = m ((c.tc : Thread nD τ).loc main_arg7) := by
  rw [ops_split, StableHlo.after_append, StableHlo.after_append]
  after_results <;> rfl
theorem kept_arg8 (m : (ℓ : Loc nD τ sig) → Buf (Elt F) ℓ) (c : Dev nD) :
    after (ops (F := F)) (launchContents m c) (Proc.devRef .tc main_arg8) = m ((c.tc : Thread nD τ).loc main_arg8) := by
  rw [ops_split, StableHlo.after_append, StableHlo.after_append]
  after_results <;> rfl

/-- On every device, from any memory with zero counters: every weakly fair execution of the reference terminates
    with the result at the log-softmax of the score and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
        = logSoftmaxLast (F := F) (scoreOf (F := F) (preAct m c) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v17).trans (result_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c)⟩)
    (run_seq scopedRefs_eq scopedSems_eq defs main (fun _ => ops) main_eq (fun _ => ops_sub) m ρ)

end Cert.ReferenceIdeal.HandRun

end
-- ==== Proof.LibDenseEdges.lean ====
/-
  A dense matrix assembled from an edge list, applied to a column, against the edgewise sum.

  Edges e carry a weight a_e, a target r_e and a source c_e.  The dense matrix has entry
  (n, k) = ∑ of a_e over the edges with r_e = n and c_e = k  (parallel edges add up).  Applying it to a
  column t gives, at row n,  ∑_k L(n, k) · t_k.  The edgewise form aggregates at the target directly:
  ∑ of a_e · t_{c_e} over the edges with r_e = n.  The two agree because a product distributes over a finite
  sum — which on the extended reals needs every weight and every entry of the column to be a real number:
  with a weight +∞ beside a weight −∞ on parallel edges, or an infinite entry of t against weights that cancel,
  the two sides differ.  So the identity is stated for real-valued data, and the closure lemmas below are what
  carries "every entry is a real number" through sums, products, negation and maxima.
-/
import Idealize.ShloMosaic.PureOps.Ideal.Laws

noncomputable section

open scoped BigOperators

namespace Cert.DenseEdges

/-! ## Extended reals that are real numbers -/

/-- An extended real that is a real number (neither infinity). -/
def IsReal (x : EReal) : Prop := ∃ r : ℝ, x = (r : EReal)

theorem isReal_of_ne {x : EReal} (hb : x ≠ ⊥) (ht : x ≠ ⊤) : IsReal x :=
  ⟨x.toReal, (EReal.coe_toReal ht hb).symm⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_zero : IsReal 0 := ⟨0, EReal.coe_zero.symm⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.neg {x : EReal} (hx : IsReal x) : IsReal (-x) := by
  obtain ⟨r, rfl⟩ := hx; exact ⟨-r, (EReal.coe_neg r).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- A finite sum of real numbers is a real number. -/
theorem isReal_sum {ι : Type*} (s : Finset ι) (f : ι → EReal) (h : ∀ i ∈ s, IsReal (f i)) :
    IsReal (∑ i ∈ s, f i) := by
  classical
  refine Finset.induction_on s (fun _ => ?_) (fun i s hi ih h => ?_) h
  · rw [Finset.sum_empty]; exact isReal_zero
  · rw [Finset.sum_insert hi]
    exact (h i (Finset.mem_insert_self i s)).add (ih fun j hj => h j (Finset.mem_insert_of_mem hj))

/-! ## The dense form against the edgewise form -/

/-- Over the reals: summing the dense matrix's row n against the column is summing, over the edges into n, the
    weight times the column's entry at the edge's source. -/
theorem real_dense_eq_edges {E N : Type*} [Fintype E] [Fintype N] [DecidableEq N]
    (r c : E → N) (a : E → ℝ) (t : N → ℝ) (n : N) :
    ∑ k, (∑ e ∈ Finset.univ.filter (fun e => r e = n ∧ c e = k), a e) * t k
      = ∑ e ∈ Finset.univ.filter (fun e => r e = n), a e * t (c e) := by
  simp only [Finset.sum_mul, Finset.sum_filter]
  rw [Finset.sum_comm]
  refine Finset.sum_congr rfl fun e _ => ?_
  by_cases h : r e = n
  · simp only [h, true_and, if_true, ite_mul, zero_mul]
    rw [Finset.sum_ite_eq Finset.univ (c e) (fun k => a e * t k)]
    simp
  · simp only [h, false_and, if_false, zero_mul, Finset.sum_const_zero]

/-- THE IDENTITY over the extended reals, for real-valued weights and a real-valued column: row n of the dense
    matrix (each entry the zero it was initialised with plus its parallel edges' weights) against the column
    equals the zero plus the edgewise sum at the target n. -/
theorem dense_eq_edges {E N : Type*} [Fintype E] [Fintype N] [DecidableEq N]
    (r c : E → N) (a : E → EReal) (t : N → EReal)
    (ha : ∀ e, IsReal (a e)) (ht : ∀ k, IsReal (t k)) (n : N) :
    ∑ k, ((0 : EReal) + ∑ e ∈ Finset.univ.filter (fun e => r e = n ∧ c e = k), a e) * t k
      = (0 : EReal) + ∑ e ∈ Finset.univ.filter (fun e => r e = n), a e * t (c e) := by
  choose a' ha' using ha
  choose t' ht' using ht
  simp only [ha', ht', zero_add, ← coe_sum, ← EReal.coe_mul]
  exact congrArg _ (real_dense_eq_edges r c a' t' n)

/-- The dense product's entries are real numbers when the weights and the column are. -/
theorem isReal_dense {E N : Type*} [Fintype E] [Fintype N] [DecidableEq N]
    (r c : E → N) (a : E → EReal) (t : N → EReal)
    (ha : ∀ e, IsReal (a e)) (ht : ∀ k, IsReal (t k)) (n : N) :
    IsReal (∑ k, ((0 : EReal) + ∑ e ∈ Finset.univ.filter (fun e => r e = n ∧ c e = k), a e) * t k) :=
  isReal_sum _ _ fun k _ => (isReal_zero.add (isReal_sum _ _ fun e _ => ha e)).mul (ht k)

end Cert.DenseEdges

end
-- ==== Proof.LibUnitSoftmax.lean ====
/-
  A log-softmax over ONE entry, on the extended reals.

  log_softmax(s) = (s − M) − log ∑ exp(s − M) with M the maximum of the family.  For a family of one entry s the
  maximum is s itself, so the shifted entry is s − s, its exponential 1, the sum 1, its logarithm 0 and the result
  (s − s) − 0.  On the extended reals s − s is 0 exactly when s is a real number (at either infinity it is −∞), so
  the one-entry log-softmax is 0 for every REAL s — which is what the lemmas below say, in the spelling a host
  program has: the maximum taken from −∞ and compared once more with −∞, the sum taken from 0.
  Beside it: the hyperbolic tangent of ANY extended real is a real number (its values at the infinities are ∓1),
  so a sum of products tanh(·) · v is real as soon as v is.
-/
import proofs.«160493_j43722767073503_2_alg».proof.Proof.LibDenseEdges

noncomputable section

open scoped BigOperators

namespace Cert.UnitSoftmax

open Idealize.ShloMosaic Cert.DenseEdges

/-- The hyperbolic tangent of any extended real is a real number: −1 and 1 at the infinities, tanh r at a real r. -/
theorem isReal_tanh (x : EReal) : IsReal (Ideal.tanh x) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

/-- The maximum of one entry taken from −∞, compared once more with −∞, is the entry. -/
theorem max_bot_max_bot (s : EReal) : max (⊥ : EReal) (max s ⊥) = s := by
  rw [max_bot_right, max_bot_left]

/-- A real number minus itself is 0 on the extended reals. -/
theorem sub_self_of_isReal {s : EReal} (hs : IsReal s) : s - s = 0 := by
  obtain ⟨r, rfl⟩ := hs
  rw [← EReal.coe_sub, sub_self, EReal.coe_zero]

/-- exp 0 = 1 and log 1 = 0 on the extended reals. -/
theorem exp_zero : Ideal.exp 0 = 1 := by
  rw [← EReal.coe_zero, Ideal.exp_coe, Real.exp_zero, EReal.coe_one]
theorem log_one : Ideal.log 1 = 0 := by
  rw [← EReal.coe_one, Ideal.log_coe, if_neg (by norm_num), Real.log_one, EReal.coe_zero]

/-- THE ONE-ENTRY LOG-SOFTMAX of a real number is 0: with the shifted entry d = s − max(−∞, max(s, −∞)),
    d − log (0 + ∑ over the one entry of exp d) = 0. -/
theorem logSoftmax_one_entry {s : EReal} (hs : IsReal s) :
    (s - max (⊥ : EReal) (max s ⊥)) - Ideal.log (0 + ∑ _k : Fin 1, Ideal.exp (s - max (⊥ : EReal) (max s ⊥))) = 0 := by
  rw [max_bot_max_bot, sub_self_of_isReal hs, Fin.sum_univ_one, exp_zero, zero_add, log_one, sub_self_of_isReal isReal_zero]

end Cert.UnitSoftmax

end
-- ==== Proof.RefZero.lean ====
/-
  The reference's result is the zero array when the column and the bias are real-valued.

  The score s(b, t, 0) = ∑ₖ tanh z(b, t, k) · v(k, 0) + bv(0) is a real number whatever z is: a hyperbolic tangent
  is real at every extended real, v and bv are real, and finite sums and products of reals are real.  The last axis
  has one entry, so the maximum along it (taken from −∞) is s itself, the shifted score is s − s = 0, the sum of
  exponentials is 0 + exp 0 = 1 and the log-softmax is 0 − log 1 = 0 at every index.
-/
import proofs.«160493_j43722767073503_2_alg».proof.Proof.RefTerms
import proofs.«160493_j43722767073503_2_alg».proof.Proof.LibUnitSoftmax
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.Zero

open Cert.ReferenceIdeal Cert.ReferenceIdeal.Gen Cert.ReferenceIdeal.Terms
open Idealize.ShloMosaic Idealize.ShloMosaic.ValueIdx Cert.DenseEdges Cert.UnitSoftmax

attribute [local irreducible] Host.reduce Ideal.hostReduceAdd

/-- Dropping the last axis of [256, 2048, 1] gives [256, 2048]. -/
theorem reduces_last : S256x2048x1.Reduces [2] S256x2048 := by decide

/-- (p, q) with the coordinate k put back on the last axis is (p, q, k). -/
theorem lift_last (p : Fin 256) (q : Fin 2048) (k : Fin (S256x2048x1.size 2)) :
    reduces_last.lift (ix2 p q) k = ix3 p q (⟨k.val, k.isLt⟩ : Fin 1) := by
  funext c; apply Fin.ext
  fin_cases c <;> rfl

/-- The last axis has the one coordinate 0. -/
theorem last_eq_zero (u : Fin 1) : u = 0 := Subsingleton.elim _ _

/-- A [256, 2048] array viewed [256, 2048, 1]: entry (p, q, u) is entry (p, q). -/
theorem keepLast_apply {α : Type} (y : S256x2048.Idx → α) (p : Fin 256) (q : Fin 2048) (u : Fin 1) :
    broadcastInDim S256x2048x1 ![0, 1] bcast_S256x2048_S256x2048x1_0_1 y (ix3 p q u) = y (ix2 p q) :=
  broadcastInDim_apply _ bcast_S256x2048_S256x2048x1_0_1 y (ix3 p q u) (ix2 p q) (fun a => match a with
    | ⟨0, _⟩ => by show p.val = if (256 : Nat) = 1 then 0 else p.val; rw [if_neg (by decide)]
    | ⟨1, _⟩ => by show q.val = if (2048 : Nat) = 1 then 0 else q.val; rw [if_neg (by decide)])

/-- The f32 pattern of −∞ denotes −∞. -/
theorem neg_inf_word : Ideal.ofBits .f32 0xFF800000#32 = ⊥ := by simp [Ideal.ofBits, Ideal.ieee]

/-- Every entry of the score is a real number when the column and the bias are real-valued. -/
theorem isReal_score (z : FVec Ideal S256x2048x128 .f32) (v : FVec Ideal S128x1 .f32) (bv : FVec Ideal S1 .f32)
    (hv : ∀ i, IsReal (v i)) (hbv : ∀ i, IsReal (bv i)) (i : S256x2048x1.Idx) : IsReal (scoreOf (F := Ideal) z v bv i) := by
  unfold scoreOf
  rw [addf_apply]
  refine IsReal.add ?_ (hbv _)
  simp only [Host.dotGeneral]
  rw [Ideal.dotGeneral_apply]
  exact isReal_sum _ _ fun k _ => (isReal_tanh _).mul (hv _)

/-- A maximum folded from `b` over a one-entry family is the maximum of the entry and `b`. -/
theorem fold_max_one (b : EReal) (f : Fin 1 → EReal) : (Finset.univ : Finset (Fin 1)).fold max b f = max (f 0) b := by
  rw [Finset.univ_unique, Finset.fold_singleton]
  rfl

/-- The −∞ splat over [256, 2048] at an index, and the rank-0 −∞ constant at its one index. -/
theorem neg_inf_splat (j : S256x2048.Idx) :
    broadcastInDim S256x2048 ![] bcast_S_S256x2048 (constant (F := Ideal) S_ .f32 0xFF800000#32) j = ⊥ := neg_inf_word
theorem neg_inf_const (j : S_.Idx) : constant (F := Ideal) S_ .f32 0xFF800000#32 j = ⊥ := neg_inf_word

/-- The maximum over the one-entry last axis, folded from −∞, at (p, q): the entry (p, q, 0) against −∞. -/
theorem fold_last (s : FVec Ideal S256x2048x1 .f32) (p : Fin 256) (q : Fin 2048) :
    (Finset.univ : Finset (Fin (S256x2048x1.size 2))).fold (FloatOps.maximumf (F := Ideal) (φ := .f32)) (⊥ : EReal)
      (s ∘ reduces_last.lift (ix2 p q)) = max (s (ix3 p q 0)) ⊥ := by
  refine (fold_max_one ⊥ (s ∘ reduces_last.lift (ix2 p q))).trans ?_
  refine congrArg (fun x => max (s x) (⊥ : EReal)) ?_
  exact lift_last p q (0 : Fin 1)

/-- The maximum along the one-entry last axis, from −∞ and compared once more with −∞, at (p, q). -/
theorem lastMax_apply (s : FVec Ideal S256x2048x1 .f32) (p : Fin 256) (q : Fin 2048) :
    lastMax (F := Ideal) s (ix2 p q) = max (⊥ : EReal) (max (s (ix3 p q 0)) ⊥) := by
  unfold lastMax
  rw [maximumf_apply, Host.reduce_eq_fold_single FloatOps.maximumf s _ reducesTo_S256x2048x1_S256x2048_d2 reduces_last h_S_,
    neg_inf_splat, neg_inf_const, fold_last]

/-- The shifted score at (p, q, u). -/
theorem shifted_apply (s : FVec Ideal S256x2048x1 .f32) (p : Fin 256) (q : Fin 2048) (u : Fin 1) :
    shifted (F := Ideal) s (ix3 p q u) = s (ix3 p q u) - max (⊥ : EReal) (max (s (ix3 p q 0)) ⊥) := by
  unfold shifted
  rw [subf_apply, keepLast_apply, lastMax_apply]

/-- The host's logarithm of an array, read at an index. -/
theorem hostLog_apply {s : Shape} (y : FVec Ideal s .f32) (i : s.Idx) : Host.log y i = Ideal.log (y i) := rfl

/-- The sum of exponentials along the one-entry last axis, from 0, at (p, q). -/
theorem sumExp_apply (d : FVec Ideal S256x2048x1 .f32) (p : Fin 256) (q : Fin 2048) :
    Host.reduceAdd (F := Ideal) (Host.exp d) (constant S_ .f32 0x00000000#32) reducesTo_S256x2048x1_S256x2048_d2 h_S_ (ix2 p q)
      = 0 + ∑ k : Fin 1, Ideal.exp (d (ix3 p q k)) := by
  simp only [Host.reduceAdd, Ideal.hostReduceAdd_def]
  rw [Ideal.hostReduceAdd_single reducesTo_S256x2048x1_S256x2048_d2 reduces_last]
  show Ideal.ofBits .f32 0x00000000#32 + ∑ k : Fin 1, Host.exp d (reduces_last.lift (ix2 p q) k) = _
  rw [Ideal.ofBits_zero_f32]
  refine congrArg (0 + ·) (Finset.sum_congr rfl fun k _ => ?_)
  exact congrArg (fun x => Ideal.exp (d x)) (lift_last p q k)

/-- The log-softmax along the last axis at (p, q, u), over the shifted score. -/
theorem logSoftmaxLast_apply (s : FVec Ideal S256x2048x1 .f32) (p : Fin 256) (q : Fin 2048) (u : Fin 1) :
    logSoftmaxLast (F := Ideal) s (ix3 p q u)
      = shifted (F := Ideal) s (ix3 p q u) - Ideal.log (0 + ∑ k : Fin 1, Ideal.exp (shifted (F := Ideal) s (ix3 p q k))) := by
  unfold logSoftmaxLast
  rw [subf_apply, hostLog_apply, keepLast_apply, sumExp_apply]

/-- THE REFERENCE'S VALUE: the log-softmax of the score is 0 at every index. -/
theorem logSoftmax_score_zero (z : FVec Ideal S256x2048x128 .f32) (v : FVec Ideal S128x1 .f32) (bv : FVec Ideal S1 .f32)
    (hv : ∀ i, IsReal (v i)) (hbv : ∀ i, IsReal (bv i)) :
    logSoftmaxLast (F := Ideal) (scoreOf (F := Ideal) z v bv) = fun _ => (0 : EReal) := by
  funext i
  obtain ⟨p, q, u, rfl⟩ : ∃ (p : Fin 256) (q : Fin 2048) (u : Fin 1), i = ix3 p q u := ⟨i 0, i 1, i 2, eq_ix3 i⟩
  obtain rfl := last_eq_zero u
  rw [logSoftmaxLast_apply]
  simp only [shifted_apply]
  have e : ∀ k : Fin 1, scoreOf (F := Ideal) z v bv (ix3 p q k) = scoreOf (F := Ideal) z v bv (ix3 p q 0) :=
    fun k => by rw [last_eq_zero k]
  simp only [e]
  exact logSoftmax_one_entry (isReal_score z v bv hv hbv _)

end Cert.ReferenceIdeal.Zero

end
-- ==== Proof.PreReal.lean ====
/-
  What the precondition says of the column v and the bias bv.

  The precondition is the conjunction, over the nine argument arrays, of "every entry x has |x| < +∞".  On the
  extended reals |x| = max(x, −x) is +∞ exactly at the two infinities, so an entry with |x| < +∞ is a real
  number.  Only the last two conjuncts are used: every entry of the [128, 1] column and the one entry of the bias
  are real numbers.
-/
import proofs.«160493_j43722767073503_2_alg».proof.Proof.Gen.Pre_finite_inputs
import proofs.«160493_j43722767073503_2_alg».proof.Proof.LibDenseEdges
import Idealize.ShloMosaic.Lib.ReduceAll
import Idealize.ShloMosaic.Lib.ValueIdx
import Idealize.ShloMosaic.PureOps.Ideal.Laws

noncomputable section

namespace Cert.Pre_finite_inputs.Reals

open Cert.Pre_finite_inputs Cert.Pre_finite_inputs.Gen Idealize.ShloMosaic Cert.DenseEdges

/-- The rank-0 shape has one index. -/
instance : Subsingleton S_.Idx := ⟨fun a b => funext fun d => d.elim0⟩

/-- An extended real whose absolute value is below +∞ (the f32 pattern 0x7F800000) is a real number. -/
theorem isReal_of_abs_lt_inf (x : EReal)
    (h : FloatOps.cmpf (F := Ideal) (φ := .f32) .olt (FloatOps.hostAbsf x) (FloatOps.ofBits .f32 0x7F800000#32) = 1#1) :
    IsReal x := by
  have htop : Ideal.ofBits .f32 0x7F800000#32 = ⊤ := by simp [Ideal.ofBits, Ideal.ieee]
  rw [Ideal.cmpf_def, Ideal.hostAbsf_def, Ideal.absf_def, Ideal.ofBits_def, htop] at h
  induction x using EReal.rec with
  | bot => simp [Ideal.cmp] at h
  | top => simp [Ideal.cmp] at h
  | coe r => exact ⟨r, rfl⟩

/-- The last part of the precondition: when it is all ones, the column's and the bias's entries are real numbers. -/
theorem reals_of_part2 (a7 : FVec Ideal S128x1 .f32) (a8 : FVec Ideal S1 .f32) (w : IVec S_ 1)
    (h : fn_part2 (F := Ideal) a7 a8 w = fun _ => 1#1) : (∀ i, IsReal (a7 i)) ∧ ∀ i, IsReal (a8 i) := by
  have h0 := congrFun h ValueIdx.ix0
  dsimp only [fn_part2] at h0
  obtain ⟨h1, h42⟩ := IntOp.andi_eq_one.mp h0
  obtain ⟨-, h37⟩ := IntOp.andi_eq_one.mp h1
  exact ⟨fun i => isReal_of_abs_lt_inf _ (Host.reduce_andi_all _ _ _ _ _ h37 i),
    fun i => isReal_of_abs_lt_inf _ (Host.reduce_andi_all _ _ _ _ _ h42 i)⟩

/-- The precondition ends in its last part, applied to the column, the bias and the conjunction so far. -/
theorem fn_eq_part2 (a0 : FVec Ideal S256x2048x128 .f32) (a1 a2 : FVec Ideal S1x256x128 .f32) (a3 : FVec Ideal S128x128 .f32)
    (a4 : FVec Ideal S128 .f32) (a5 : FVec Ideal S256x128 .f32) (a6 : FVec Ideal S128 .f32) (a7 : FVec Ideal S128x1 .f32)
    (a8 : FVec Ideal S1 .f32) : ∃ w : IVec S_ 1, fn (F := Ideal) a0 a1 a2 a3 a4 a5 a6 a7 a8 = fn_part2 (F := Ideal) a7 a8 w :=
  ⟨_, rfl⟩

/-- Under the precondition every entry of the column and the entry of the bias are real numbers. -/
theorem reals_of_pre (a0 : FVec Ideal S256x2048x128 .f32) (a1 a2 : FVec Ideal S1x256x128 .f32) (a3 : FVec Ideal S128x128 .f32)
    (a4 : FVec Ideal S128 .f32) (a5 : FVec Ideal S256x128 .f32) (a6 : FVec Ideal S128 .f32) (a7 : FVec Ideal S128x1 .f32)
    (a8 : FVec Ideal S1 .f32) (h : fn (F := Ideal) a0 a1 a2 a3 a4 a5 a6 a7 a8 = fun _ => 1#1) :
    (∀ i, IsReal (a7 i)) ∧ ∀ i, IsReal (a8 i) := by
  obtain ⟨w, hw⟩ := fn_eq_part2 a0 a1 a2 a3 a4 a5 a6 a7 a8
  exact reals_of_part2 a7 a8 w (hw ▸ h)

end Cert.Pre_finite_inputs.Reals

end
-- ==== Proof.lean ====
/-
  The kernel's program against its reference, on the extended reals.

  The kernel writes the f32 zero word through every block of its [256, 2048] output (the 32 blocks tile it) and
  views the array [256, 2048, 1]: its result is 0 at every index, whatever the arguments.  The reference computes
  the score  s(b, t, 0) = ∑ₖ tanh z(b, t, k) · v(k, 0) + bv(0)  and returns its log-softmax along the last axis,
  which has one entry:  (s − s) − log (0 + exp (s − s)).  On the extended reals s − s = 0 exactly when s is a real
  number.  The precondition makes every entry of v and of bv a real number, and a hyperbolic tangent is a real
  number at every extended real, so the score is real at every index, whatever z is; then the reference's result
  is 0 − log 1 = 0 at every index too.  The two results are the same array.

  The three frame claims: the kernel's two programs run, terminate and keep their arguments by their frame
  certificates; the reference by its run.  Nothing was rewritten by the idealization, so there is nothing to
  preserve.
-/
import proofs.«160493_j43722767073503_2_alg».proof.Defs
import proofs.«160493_j43722767073503_2_alg».proof.Proof.Gen.Kernel
import proofs.«160493_j43722767073503_2_alg».proof.Proof.Gen.Kernel.Skeleton
import proofs.«160493_j43722767073503_2_alg».proof.Proof.Gen.Kernel.Launch
import proofs.«160493_j43722767073503_2_alg».proof.Proof.Gen.Kernel.Points
import proofs.«160493_j43722767073503_2_alg».proof.Proof.Gen.Kernel.Frame
import proofs.«160493_j43722767073503_2_alg».proof.Proof.Gen.KernelIdeal
import proofs.«160493_j43722767073503_2_alg».proof.Proof.Gen.KernelIdeal.Skeleton
import proofs.«160493_j43722767073503_2_alg».proof.Proof.Gen.KernelIdeal.Launch
import proofs.«160493_j43722767073503_2_alg».proof.Proof.Gen.KernelIdeal.Points
import proofs.«160493_j43722767073503_2_alg».proof.Proof.Gen.KernelIdeal.Frame
import proofs.«160493_j43722767073503_2_alg».proof.Proof.Gen.ReferenceIdeal
import proofs.«160493_j43722767073503_2_alg».proof.Proof.Gen.Pre_finite_inputs
import proofs.«160493_j43722767073503_2_alg».proof.Proof.KernelZeros
import proofs.«160493_j43722767073503_2_alg».proof.Proof.RefRun
import proofs.«160493_j43722767073503_2_alg».proof.Proof.RefZero
import proofs.«160493_j43722767073503_2_alg».proof.Proof.PreReal
import Idealize.ShloMosaic.Adequacy
import Idealize.ShloMosaic.Init

noncomputable section

namespace Cert.Proof

open Idealize.ShloMosaic Idealize.SL.Sem Cert.DenseEdges

/-- The kernel's program as printed runs, terminates and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, terminates and keeps its arguments: its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- Both programs end with the zero array: the kernel's by its stores, the reference's because the score is a real
    number at every index under the precondition. -/
theorem algebraic : Cert.algebraic_KernelIdeal_ReferenceIdeal := by
  intro m ρ m' ρ' hpre hagree
  refine ⟨fun _ => fun _ => (0 : EReal), ?_, ?_⟩
  · exact (θ_run Cert.KernelIdeal.defs _ _).mono
      (fun _ h c => ⟨(h c).1.trans Cert.KernelIdeal.Zeros.zeros3_ideal, (h c).2⟩)
      (Cert.KernelIdeal.Zeros.run (F := Ideal) m ρ)
  · refine (θ_run Cert.ReferenceIdeal.defs _ _).mono (fun _ h c => ⟨(h c).1.trans ?_, (h c).2⟩)
      (Cert.ReferenceIdeal.HandRun.run (F := Ideal) m' ρ')
    obtain ⟨hv, hbv⟩ := Cert.Pre_finite_inputs.Reals.reals_of_pre _ _ _ _ _ _ _ _ _ (hpre c)
    have e7 := (hagree c).2.2.2.2.2.2.2.1
    have e8 := (hagree c).2.2.2.2.2.2.2.2
    exact Cert.ReferenceIdeal.Zero.logSoftmax_score_zero _ _ _
      (fun i => by rw [e7]; exact hv i) (fun i => by rw [e8]; exact hbv i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
